-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x64 .f32) (main_arg6 : FVec F S40 .f32) (main_arg7 : FVec F S40x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S40x64 .f32 := Host.absf main_arg5
  let main_cst_6 : FVec F S_ .f32 := constant S_ .f32 0x7F800000#32
  let main_v20 : FVec F S40x64 .f32 := broadcastInDim S40x64 ![] bcast_S_S40x64 main_cst_6
  let main_v21 : IVec S40x64 1 := cmpf .olt main_v19 main_v20
  let main_c_7 : IVec S_ 1 := constantI S_ 1 1#1
  let main_v22 : IVec S_ 1 := (fun x v => Host.reduce IntOp.andi x v reducesTo_S40x64_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x64 .f32 := Host.absf main_arg7
  let main_cst_10 : FVec F S_ .f32 := constant S_ .f32 0x7F800000#32
  let main_v30 : FVec F S40x64 .f32 := broadcastInDim S40x64 ![] bcast_S_S40x64 main_cst_10
  let main_v31 : IVec S40x64 1 := cmpf .olt main_v29 main_v30
  let main_c_11 : IVec S_ 1 := constantI S_ 1 1#1
  let main_v32 : IVec S_ 1 := (fun x v => Host.reduce IntOp.andi x v reducesTo_S40x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) (main_arg5 : FVec F S40x64 .f32) (main_arg6 : FVec F S40 .f32) (main_arg7 : FVec F S40x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128x64 : Shape := ⟨2, ![128, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1x64 : Shape := ⟨2, ![1, 64]⟩
abbrev S1600000x64 : Shape := ⟨2, ![1600000, 64]⟩
abbrev S64x40 : Shape := ⟨2, ![64, 40]⟩
abbrev S100000x40 : Shape := ⟨2, ![100000, 40]⟩
abbrev S5000x40 : Shape := ⟨2, ![5000, 40]⟩
abbrev S1x40 : Shape := ⟨2, ![1, 40]⟩
abbrev S5000 : Shape := ⟨1, ![5000]⟩

abbrev nBuf : Space → Nat
  | .hbm => 58
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S40x64, .f32⟩
  | .hbm, ⟨6, _⟩ => ⟨S40, .f32⟩
  | .hbm, ⟨7, _⟩ => ⟨S40x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S100000x128, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .bf16⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S128x64, .f32⟩
  | .hbm, ⟨35, _⟩ => ⟨S128x64, .bf16⟩
  | .hbm, ⟨36, _⟩ => ⟨S128x64, .f32⟩
  | .hbm, ⟨37, _⟩ => ⟨S128x64, .bf16⟩
  | .hbm, ⟨38, _⟩ => ⟨S100000x64, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .bf16⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S64x40, .f32⟩
  | .hbm, ⟨54, _⟩ => ⟨S64x40, .bf16⟩
  | .hbm, ⟨55, _⟩ => ⟨S64x40, .f32⟩
  | .hbm, ⟨56, _⟩ => ⟨S64x40, .bf16⟩
  | .hbm, ⟨57, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .bf16⟩
  | .local _ .vmem, ⟨5, _⟩ => ⟨S5000x128, .bf16⟩
  | .local _ .vmem, ⟨6, _⟩ => ⟨S128x64, .bf16⟩
  | .local _ .vmem, ⟨7, _⟩ => ⟨S64, .f32⟩
  | .local _ .vmem, ⟨8, _⟩ => ⟨S128x64, .bf16⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .bf16⟩
  | .local _ .vmem, ⟨16, _⟩ => ⟨S5000x64, .bf16⟩
  | .local _ .vmem, ⟨17, _⟩ => ⟨S64x40, .bf16⟩
  | .local _ .vmem, ⟨18, _⟩ => ⟨S40, .f32⟩
  | .local _ .vmem, ⟨19, _⟩ => ⟨S64x40, .bf16⟩
  | .local _ .vmem, ⟨20, _⟩ => ⟨S5000x40, .f32⟩
  | .local _ .vmem, ⟨21, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x40 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x128 : S_.BroadcastsInDim S100000x128 (![] : Fin 0 → Fin S100000x128.rank)
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  transposes_S40x64_S64x40_1_0 : S40x64.Transposes [1, 0] S64x40
  shapeCasts_S5000x64_S5000x64 : S5000x64.ShapeCasts S5000x64
  broadcasts_S5000x1_S5000x64 : S5000x1.Broadcasts S5000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .bf16 = 32 ∨ (Rect.block (s := S100000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .bf16 = 32 ∨ (Rect.block (s := S100000x64) S5000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .bf16 = 32 ∨ (Rect.block (s := S64x40) S64x40.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x40.size a ≤ S64x40.size a
  hwx1_5 : ∀ i : grid1.Coords, EltTy.bits .bf16 = 32 ∨ (Rect.block (s := S64x40) S64x40.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S100000x40.size a
  hwx1_6 : ∀ i : grid1.Coords, EltTy.bits .f32 = 32 ∨ (Rect.block (s := S100000x40) S5000x40.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S64x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S64x40 : Shape := ⟨2, ![64, 40]⟩
abbrev S100000x40 : Shape := ⟨2, ![100000, 40]⟩
abbrev S1x40 : Shape := ⟨2, ![1, 40]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S40x64, .f32⟩
  | .hbm, ⟨6, _⟩ => ⟨S40, .f32⟩
  | .hbm, ⟨7, _⟩ => ⟨S40x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S128x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S1x1600000, .i32⟩
  | .hbm, ⟨50, _⟩ => ⟨S1600000, .i32⟩
  | .hbm, ⟨51, _⟩ => ⟨S1x1600000, .i32⟩
  | .hbm, ⟨52, _⟩ => ⟨S1600000, .i32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S64x40, .f32⟩
  | .hbm, ⟨80, _⟩ => ⟨S100000x40, .f32⟩
  | .hbm, ⟨81, _⟩ => ⟨S1x40, .f32⟩
  | .hbm, ⟨82, _⟩ => ⟨S100000x40, .f32⟩
  | .hbm, ⟨83, _⟩ => ⟨S100000x40, .f32⟩
  | .hbm, ⟨84, _⟩ => ⟨S64x40, .f32⟩
  | .hbm, ⟨85, _⟩ => ⟨S100000x40, .f32⟩
  | .hbm, ⟨86, _⟩ => ⟨S100000x40, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000x1, .f32⟩
  | .hbm, ⟨93, _⟩ => ⟨S100000x40, .f32⟩
  | .hbm, ⟨94, _⟩ => ⟨S100000x40, .f32⟩
  | .hbm, ⟨95, _⟩ => ⟨S100000x40, .f32⟩
  | .hbm, ⟨96, _⟩ => ⟨S_, .f32⟩
  | .hbm, ⟨97, _⟩ => ⟨S100000, .f32⟩
  | .hbm, ⟨98, _⟩ => ⟨S100000x1, .f32⟩
  | .hbm, ⟨99, _⟩ => ⟨S100000x40, .f32⟩
  | .hbm, ⟨100, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.RunResult.lean ====
/-
  The idealized kernel program's run, read at every buffer.

  The program is four stretches: host operations, the first layer's grid, host operations, the second layer's grid.
  The contents of the buffers outside the staging memory at the end of each stretch are a fold from the launch memory:
  a stretch of host operations applies them, a grid leaves its arrays at what its write-backs leave and every other
  buffer alone. The launch theorem for a program of several grids ends in a thread state that holds all those buffers
  at the last fold; read against a final memory it says that memory agrees with the last fold on every one of them —
  the result buffer among them, which a frame statement forgets.
-/
import proofs.«105752_j36344013259391_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, in a memory that holds, at every buffer
    outside the staging memory, what the last of the four stretches leaves there. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- The result buffer is one of those buffers. -/
theorem result_mem : Proc.devRef .tc main_v41 ∈ Pipeline.ucRefs τ sig := mem_uc main_v41 (by decide)

end Cert.KernelIdeal.SageRun

end
-- ==== Proof.Spec.lean ====
/-
  The mathematics of one mean-aggregating graph-convolution stage, entry by entry, on the extended reals.

  A node p has a row of summed neighbour features agg[p, ·] and a neighbour count cnt[p]. The stage divides the
  row by max(1, cnt[p]) (so an isolated node keeps a zero mean), multiplies the mean by one weight matrix, adds a
  bias, and adds the node's own features multiplied by a second weight matrix:

      lin[p, q] = (Σ_k (agg[p, k] / max(1, cnt[p])) · WlT[k, q]) + bl[q] + Σ_k x[p, k] · WrT[k, q].

  The first layer rectifies that value, max(lin[p, q], 0); the second layer normalises each row with a softmax
  whose maximum is folded from −∞:  exp(lin[p, q] − m_p) / Σ_j exp(lin[p, j] − m_p),  m_p = max(−∞, max_j lin[p, j]).
  The two float literals 1 and 0 and the pattern of −∞ are kept as the words both programs print.
-/
import Idealize.ShloMosaic.PureOps.Ideal
import Idealize.ShloMosaic.Lib.ValueIdx

noncomputable section

namespace Cert.Sage

open Idealize.ShloMosaic Idealize.ShloMosaic.ValueIdx

/-- The float literal 1.0 as both programs print it. -/
abbrev one : EReal := Ideal.ofBits .f32 0x3F800000#32
/-- The float literal 0.0 as both programs print it. -/
abbrev zero : EReal := Ideal.ofBits .f32 0x00000000#32
/-- The pattern of −∞ as both programs print it. -/
abbrev negInf : EReal := Ideal.ofBits .f32 0xFF800000#32

/-- A rank-2 array given entry by entry. -/
def arr2 {n0 n1 : Nat} (f : Fin n0 → Fin n1 → EReal) : (⟨2, ![n0, n1]⟩ : Shape).Idx → EReal := fun i => f (i 0) (i 1)

theorem arr2_apply {n0 n1 : Nat} (f : Fin n0 → Fin n1 → EReal) (p : Fin n0) (q : Fin n1) : arr2 f (ix2 p q) = f p q := rfl

/-- The linear stage at node p, output channel q: the mean of the neighbours through WlT, plus the bias, plus the
    node's own row through WrT. cnt1 is the count as an [N, 1] column. -/
def lin {N D O : Nat} (agg : (⟨2, ![N, D]⟩ : Shape).Idx → EReal) (cnt1 : (⟨2, ![N, 1]⟩ : Shape).Idx → EReal)
    (x : (⟨2, ![N, D]⟩ : Shape).Idx → EReal) (WlT : (⟨2, ![D, O]⟩ : Shape).Idx → EReal)
    (bl : (⟨1, ![O]⟩ : Shape).Idx → EReal) (WrT : (⟨2, ![D, O]⟩ : Shape).Idx → EReal) (p : Fin N) (q : Fin O) : EReal :=
  (∑ k : Fin D, Ideal.div (agg (ix2 p k)) (max one (cnt1 (ix2 p (0 : Fin 1)))) * WlT (ix2 k q)) + bl (ix1 q)
    + ∑ k : Fin D, x (ix2 p k) * WrT (ix2 k q)

/-- The first layer's output: the linear stage rectified. -/
def hidden {N D O : Nat} (agg : (⟨2, ![N, D]⟩ : Shape).Idx → EReal) (cnt1 : (⟨2, ![N, 1]⟩ : Shape).Idx → EReal)
    (x : (⟨2, ![N, D]⟩ : Shape).Idx → EReal) (WlT : (⟨2, ![D, O]⟩ : Shape).Idx → EReal)
    (bl : (⟨1, ![O]⟩ : Shape).Idx → EReal) (WrT : (⟨2, ![D, O]⟩ : Shape).Idx → EReal) : (⟨2, ![N, O]⟩ : Shape).Idx → EReal :=
  arr2 fun p q => max (lin agg cnt1 x WlT bl WrT p q) zero

/-- The softmax of a row z of O scores at position q, its maximum folded from −∞ and joined with −∞ once more. -/
def softmaxAt {O : Nat} (z : Fin O → EReal) (q : Fin O) : EReal :=
  Ideal.div (Ideal.exp (z q - max negInf ((Finset.univ : Finset (Fin O)).fold max negInf z)))
    (∑ j : Fin O, Ideal.exp (z j - max negInf ((Finset.univ : Finset (Fin O)).fold max negInf z)))

/-- The second layer's output: each row of the linear stage through the softmax. -/
def classProbs {N D O : Nat} (agg : (⟨2, ![N, D]⟩ : Shape).Idx → EReal) (cnt1 : (⟨2, ![N, 1]⟩ : Shape).Idx → EReal)
    (x : (⟨2, ![N, D]⟩ : Shape).Idx → EReal) (WlT : (⟨2, ![D, O]⟩ : Shape).Idx → EReal)
    (bl : (⟨1, ![O]⟩ : Shape).Idx → EReal) (WrT : (⟨2, ![D, O]⟩ : Shape).Idx → EReal) : (⟨2, ![N, O]⟩ : Shape).Idx → EReal :=
  arr2 fun p q => softmaxAt (fun j => lin agg cnt1 x WlT bl WrT p j) q

end Cert.Sage

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Body0.lean ====
/-
  The first layer's kernel body at one entry.

  On a block of 5000 nodes the body divides the block of neighbour sums by max(1, count) row by row, multiplies the
  quotient by the left weights and the block of node features by the right weights on the matrix unit (both products
  into a zero accumulator), adds the bias row between them, and rectifies. Changes of float format do nothing on the
  extended reals. So its value at row r, channel q is the rectified linear stage of the block's own row r.
-/
import proofs.«105752_j36344013259391_2_alg».proof.Proof.Gen.KernelIdeal.Skeleton
import proofs.«105752_j36344013259391_2_alg».proof.Proof.Spec
import proofs.«105752_j36344013259391_2_alg».proof.Proof.LibPlainContract
import proofs.«105752_j36344013259391_2_alg».proof.Proof.LibKeepdims
import Idealize.ShloMosaic.Lib.ValueLayout
import Idealize.ShloMosaic.Lib.Pipeline.Value

noncomputable section

namespace Cert.KernelIdeal.SageBody

open Idealize.ShloMosaic Idealize.ShloMosaic.ValueIdx Cert.KernelIdeal Cert.KernelIdeal.Gen Cert.Sage

/-- The matrix unit's [5000, 128] × [128, 64] product into the zero accumulator, at one entry. -/
theorem matmul0_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) :=
  Cert.LibPlainContract.matmul_plain_apply 5000 128 64 none l r p q

/-- The value the first kernel stores, at row r of its block and channel q. The blocks are, in this order: neighbour
    sums, counts, node features, left weights, right weights, bias. -/
theorem pay0_apply (x0 : Vec Ideal S5000x128 .f32) (x1 : Vec Ideal S5000x1 .f32) (x2 : Vec Ideal S5000x128 .bf16)
    (x3 : Vec Ideal S128x64 .bf16) (x5 : Vec Ideal S128x64 .bf16) (x4 : Vec Ideal S64 .f32) (r : Fin 5000) (q : Fin 64) :
    k0_pay1 (F := Ideal) x0 x1 x2 x3 x5 x4 (ix2 r q) = max (lin x0 x1 x2 x3 x4 x5 r q) zero := by
  unfold k0_pay1
  simp only [shapeCast_self]
  rw [truncf_apply, maximumf_apply, addf_apply, addf_apply, broadcast_apply, matmul0_apply, matmul0_apply,
    broadcastTo_1b_ab_apply, shapeCast_a_1a_apply]
  unfold lin
  simp only [truncf_apply, divf_apply, Cert.Lib.Keepdims.broadcastTo_a1_ab_apply, maximumf_apply, broadcast_apply]
  rfl

end Cert.KernelIdeal.SageBody

end
-- ==== Proof.Rows.lean ====
/-
  Blocks of rows.

  Both grids walk the 100000 nodes in 20 blocks of 5000: block t holds the rows t·5000 … t·5000 + 4999. This module
  names that row and records that the linear stage at a row only looks at that row of its three node-indexed inputs.
-/
import proofs.«105752_j36344013259391_2_alg».proof.Proof.Spec

noncomputable section

namespace Cert.Sage

open Idealize.ShloMosaic Idealize.ShloMosaic.ValueIdx

/-- Row r of block t. -/
def row (t : Nat) (ht : t < 20) (r : Fin 5000) : Fin 100000 := ⟨t * 5000 + r.val, by have := r.isLt; omega⟩

theorem row_val (t : Nat) (ht : t < 20) (r : Fin 5000) : (row t ht r).val = t * 5000 + r.val := rfl

/-- The linear stage at a row depends on the node-indexed inputs through that row only. -/
theorem lin_congr {N N' D O : Nat} (agg : (⟨2, ![N, D]⟩ : Shape).Idx → EReal) (cnt1 : (⟨2, ![N, 1]⟩ : Shape).Idx → EReal)
    (x : (⟨2, ![N, D]⟩ : Shape).Idx → EReal) (agg' : (⟨2, ![N', D]⟩ : Shape).Idx → EReal)
    (cnt1' : (⟨2, ![N', 1]⟩ : Shape).Idx → EReal) (x' : (⟨2, ![N', D]⟩ : Shape).Idx → EReal)
    (WlT : (⟨2, ![D, O]⟩ : Shape).Idx → EReal) (bl : (⟨1, ![O]⟩ : Shape).Idx → EReal) (WrT : (⟨2, ![D, O]⟩ : Shape).Idx → EReal)
    (p : Fin N) (p' : Fin N') (q : Fin O)
    (ha : ∀ k, agg (ix2 p k) = agg' (ix2 p' k)) (hc : cnt1 (ix2 p (0 : Fin 1)) = cnt1' (ix2 p' (0 : Fin 1)))
    (hx : ∀ k, x (ix2 p k) = x' (ix2 p' k)) :
    lin agg cnt1 x WlT bl WrT p q = lin agg' cnt1' x' WlT bl WrT p' q := by
  unfold lin
  simp only [ha, hc, hx]

end Cert.Sage

end
-- ==== Proof.Region0.lean ====
/-
  What the first grid leaves in its output array.

  Point t of the grid stages block t of the three node-indexed arrays (neighbour sums, counts, node features), the
  whole weight matrices and the whole bias, and writes back block t of the output. A block's row r is the array's row
  t·5000 + r, and the linear stage at a row only reads that row, so what point t writes back is block t of ONE array:
  the rectified linear stage of the whole arrays as the grid finds them. The twenty blocks tile the output array (row
  i lies in block i / 5000), so after the grid the output array is that array.
-/
import proofs.«105752_j36344013259391_2_alg».proof.Proof.Gen.KernelIdeal.Frame
import proofs.«105752_j36344013259391_2_alg».proof.Proof.Body0
import proofs.«105752_j36344013259391_2_alg».proof.Proof.Rows

set_option maxRecDepth 16384

noncomputable section

namespace Cert.KernelIdeal.SageValue0

open Cert.KernelIdeal Cert.KernelIdeal.Gen Idealize.ShloMosaic Idealize.ShloMosaic.ValueIdx Idealize.ShloMosaic.TcCoe
open Idealize.SL.Sem Cert.Sage
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The grid's index maps, decided over its twenty points: the node-indexed windows and the output sit at block
    (t, 0), the weights and the bias at block 0. -/
theorem index0 : ∀ t : Fin cfg0.N, t.val < 20
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt0 (t : Fin cfg0.N) : t.val < 20 := (index0 t).1

/-- Row r, column k of block t of the neighbour sums is the array's entry (t·5000 + r, k). -/
theorem read0_0 (c : Dev nD) (t : Fin cfg0.N) (r : Fin 5000) (k : Fin 128) :
    iblk0 V c 0 t (ix2 r k) = V c main_v20 (ix2 (row t.val (lt0 t) r) k) := by
  obtain ⟨-, e0, e1, -⟩ := index0 t
  show V c main_v20 (((cfg0.win 0).blk t).view.emb (ix2 r k)) = V c main_v20 (ix2 (row t.val (lt0 t) r) k)
  refine congrArg (V c main_v20) (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

/-- The count block's row r is the count column's row t·5000 + r. -/
theorem read0_1 (c : Dev nD) (t : Fin cfg0.N) (r : Fin 5000) :
    iblk0 V c 1 t (ix2 r (0 : Fin 1)) = V c main_v8 (ix2 (row t.val (lt0 t) r) (0 : Fin 1)) := by
  obtain ⟨-, -, -, e0, e1, -⟩ := index0 t
  show V c main_v8 (((cfg0.win 1).blk t).view.emb (ix2 r (0 : Fin 1))) = V c main_v8 (ix2 (row t.val (lt0 t) r) (0 : Fin 1))
  refine congrArg (V c main_v8) (funext fun a => Fin.ext ?_)
  match a with
  | ⟨0, _⟩ => show win0_1.index t (0 : Fin 2) * 5000 + 1 * r.val = t.val * 5000 + r.val; omega
  | ⟨1, _⟩ => show win0_1.index t (1 : Fin 2) * 1 + 1 * 0 = 0; omega

/-- Row r, column k of block t of the node features is the array's entry (t·5000 + r, k). -/
theorem read0_2 (c : Dev nD) (t : Fin cfg0.N) (r : Fin 5000) (k : Fin 128) :
    iblk0 V c 2 t (ix2 r k) = V c main_v9 (ix2 (row t.val (lt0 t) r) k) := by
  obtain ⟨-, -, -, -, -, e0, e1, -⟩ := index0 t
  show V c main_v9 (((cfg0.win 2).blk t).view.emb (ix2 r k)) = V c main_v9 (ix2 (row t.val (lt0 t) r) k)
  refine congrArg (V c main_v9) (funext fun a => Fin.ext ?_)
  match a with
  | ⟨0, _⟩ => show win0_2.index t (0 : Fin 2) * 5000 + 1 * r.val = t.val * 5000 + r.val; omega
  | ⟨1, _⟩ => show win0_2.index t (1 : Fin 2) * 128 + 1 * k.val = k.val; omega

/-- The left weights' one block is the whole matrix. -/
theorem read0_3 (c : Dev nD) (t : Fin cfg0.N) : (iblk0 V c 3 t : S128x64.Idx → EReal) = V c main_v22 := by
  obtain ⟨-, -, -, -, -, -, -, e0, e1, -⟩ := index0 t
  funext y
  show V c main_v22 (((cfg0.win 3).blk t).view.emb y) = V c main_v22 y
  refine congrArg (V c main_v22) (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- The bias's one block is the whole vector. -/
theorem read0_4 (c : Dev nD) (t : Fin cfg0.N) : (iblk0 V c 4 t : S64.Idx → EReal) = V c main_arg3 := by
  obtain ⟨-, -, -, -, -, -, -, -, -, e0, -⟩ := index0 t
  funext y
  show V c main_arg3 (((cfg0.win 4).blk t).view.emb y) = V c main_arg3 y
  refine congrArg (V c main_arg3) (funext fun a => Fin.ext ?_)
  match a with
  | ⟨0, _⟩ => show win0_4.index t (0 : Fin 1) * 64 + 1 * (y 0).val = (y 0).val; omega

/-- The right weights' one block is the whole matrix. -/
theorem read0_5 (c : Dev nD) (t : Fin cfg0.N) : (iblk0 V c 5 t : S128x64.Idx → EReal) = V c main_v24 := by
  obtain ⟨-, -, -, -, -, -, -, -, -, -, e0, e1, -⟩ := index0 t
  funext y
  show V c main_v24 (((cfg0.win 5).blk t).view.emb y) = V c main_v24 y
  refine congrArg (V c main_v24) (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

/-- Row r, channel q of the output's block t is the output array's entry (t·5000 + r, q). -/
theorem emb0_6 (t : Fin cfg0.N) (r : Fin 5000) (q : Fin 64) :
    ((cfg0.win 6).blk t).view.emb (ix2 r q) = ix2 (row t.val (lt0 t) r) q := by
  obtain ⟨-, -, -, -, -, -, -, -, -, -, -, -, e0, e1⟩ := index0 t
  refine funext fun a => Fin.ext ?_
  match a with
  | ⟨0, _⟩ => show win0_6.index t (0 : Fin 2) * 5000 + 1 * r.val = t.val * 5000 + r.val; omega
  | ⟨1, _⟩ => show win0_6.index t (1 : Fin 2) * 64 + 1 * q.val = q.val; omega

/-- The first layer's output as one array: the rectified linear stage of the arrays the grid is entered with. -/
abbrev hidden0 (c : Dev nD) : S100000x64.Idx → EReal :=
  hidden (V c main_v20) (V c main_v8) (V c main_v9) (V c main_v22) (V c main_arg3) (V c main_v24)

/-- What point t writes back is block t of that array. -/
theorem flushed0_eq (c : Dev nD) (t : Fin cfg0.N) :
    (dat0 V c).flushed 6 t = ((cfg0.win 6).blk t).view.read (Elt Ideal) (hidden0 V c) := by
  show (cfg0.win 6).cut (grid0.coords t) ((dat0 V c).after 6 t) = _
  rw [after0_6]
  unfold out0_6
  rw [View.canon_unit_zero zero2]
  simp only [View.ld_unit_zero (S := S5000x128) zero2, View.ld_unit_zero (S := S5000x1) zero2,
    View.ld_unit_zero (S := S128x64) zero2, View.ld_unit_zero (S := S64) zero1]
  funext j
  obtain ⟨r, q, rfl⟩ : ∃ (r : Fin 5000) (q : Fin 64), j = ix2 r q := ⟨j 0, j 1, eq_ix2 j⟩
  show k0_pay1 (iblk0 V c 0 t) (iblk0 V c 1 t) (iblk0 V c 2 t) (iblk0 V c 3 t) (iblk0 V c 5 t) (iblk0 V c 4 t) (ix2 r q)
    = hidden0 V c (((cfg0.win 6).blk t).view.emb (ix2 r q))
  rw [emb0_6]
  refine (SageBody.pay0_apply (iblk0 V c 0 t) (iblk0 V c 1 t) (iblk0 V c 2 t) (iblk0 V c 3 t) (iblk0 V c 5 t) (iblk0 V c 4 t) r q).trans ?_
  show _ = max (lin (V c main_v20) (V c main_v8) (V c main_v9) (V c main_v22) (V c main_arg3) (V c main_v24) (row t.val (lt0 t) r) q) zero
  rw [read0_3, read0_4, read0_5]
  exact congrArg (max · zero) (lin_congr _ _ _ _ _ _ _ _ _ r (row t.val (lt0 t) r) q
    (fun k => read0_0 V c t r k) (read0_1 V c t r) (fun k => read0_2 V c t r k))

/-- An index of the output array lies in point t's block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v25).slice (win0_6.rect t)).set ↔ _
  rw [View.set_slice_whole, Rect.mem_set_unit]
  exact Iff.rfl

/-- Every index of the output array lies in some point's block: row i is in block i / 5000. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 5000, lt_of_lt_of_eq (by omega : (i 0).val / 5000 < 20) N_0.symm⟩
  obtain ⟨-, -, -, -, -, -, -, -, -, -, -, -, e0, e1⟩ := index0 t
  have ht : t.val = (i 0).val / 5000 := rfl
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- After the grid its output array is that array. -/
theorem final0 (c : Dev nD) : (dat0 V c).arrAt 6 cfg0.N = hidden0 V c :=
  (dat0 V c).arrAt_eq_of_cover 6 (hidden0 V c) (fun t _ => flushed0_eq V c t) cover0

end Cert.KernelIdeal.SageValue0

end
-- ==== Proof.RefLin1.lean ====
/-
  The reference's first linear stage, entry by entry.

  The reference's graph-convolution layer divides the summed neighbour features by the clipped count (broadcast along
  the row), contracts the quotient with the transposed left weights, adds the bias (broadcast down the rows) and adds
  the node's own features contracted with the transposed right weights. Read at node p and channel q through the
  reference's operations, one at a time, that is the linear stage of the specification, with the unclipped count as
  the column.
-/
import proofs.«105752_j36344013259391_2_alg».proof.Proof.Gen.ReferenceIdeal.Read
import proofs.«105752_j36344013259391_2_alg».proof.Proof.Spec
import proofs.«105752_j36344013259391_2_alg».proof.Proof.LibKeepdims

noncomputable section

namespace Cert.ReferenceIdeal.SageRef

open Cert.ReferenceIdeal Cert.ReferenceIdeal.Gen Cert.ReferenceIdeal.Read Idealize.ShloMosaic Idealize.ShloMosaic.ValueIdx Cert.Sage

/-- The neighbour count as an [N, 1] column, before the clip. -/
def cntCol1 (x1 : (⟨S2x1600000, .i32⟩ : BufTy).Contents (Elt Ideal)) : S100000x1.Idx → EReal :=
  broadcastInDim S100000x1 ![0] bcast_S100000_S100000x1_0 (val_main_v17 (F := Ideal) x1)

theorem cntCol1_apply (x1 : (⟨S2x1600000, .i32⟩ : BufTy).Contents (Elt Ideal)) (p : Fin 100000) :
    cntCol1 x1 (ix2 p (0 : Fin 1)) = val_main_v17 (F := Ideal) x1 (ix1 p) :=
  Cert.Lib.Keepdims.broadcastInDim_a_a1_apply _ _ p 0

theorem lidx_v23 (p : Fin 100000) (q : Fin 64) (k : Fin 128) : lidx_main_v23 (ix2 p q) k = ix2 p k :=
  funext fun a => Fin.ext (by match a with | ⟨0, _⟩ => rfl | ⟨1, _⟩ => rfl)
theorem ridx_v23 (p : Fin 100000) (q : Fin 64) (k : Fin 128) : ridx_main_v23 (ix2 p q) k = ix2 k q :=
  funext fun a => Fin.ext (by match a with | ⟨0, _⟩ => rfl | ⟨1, _⟩ => rfl)
theorem lidx_v28 (p : Fin 100000) (q : Fin 64) (k : Fin 128) : lidx_main_v28 (ix2 p q) k = ix2 p k :=
  funext fun a => Fin.ext (by match a with | ⟨0, _⟩ => rfl | ⟨1, _⟩ => rfl)
theorem ridx_v28 (p : Fin 100000) (q : Fin 64) (k : Fin 128) : ridx_main_v28 (ix2 p q) k = ix2 k q :=
  funext fun a => Fin.ext (by match a with | ⟨0, _⟩ => rfl | ⟨1, _⟩ => rfl)
theorem idx_v20 (p : Fin 100000) (k : Fin 128) : idx_main_v20 (ix2 p k) = ix2 p (0 : Fin 1) :=
  funext fun a => Fin.ext (by match a with | ⟨0, _⟩ => rfl | ⟨1, _⟩ => rfl)
theorem idx_v19 (p : Fin 100000) : idx_main_v19 (ix2 p (0 : Fin 1)) = ix1 p :=
  funext fun a => Fin.ext (by match a with | ⟨0, _⟩ => rfl)
theorem idx_v25 (p : Fin 100000) (q : Fin 64) : idx_main_v25 (ix2 p q) = ix2 (0 : Fin 1) q :=
  funext fun a => Fin.ext (by match a with | ⟨0, _⟩ => rfl | ⟨1, _⟩ => rfl)
theorem idx_v24 (q : Fin 64) : idx_main_v24 (ix2 (0 : Fin 1) q) = ix1 q :=
  funext fun a => Fin.ext (by match a with | ⟨0, _⟩ => rfl)

/-- The mean of the neighbours at node p, input channel k: the summed features over the clipped count. -/
theorem mean_v21 (x0 : (⟨S100000x128, .f32⟩ : BufTy).Contents (Elt Ideal)) (x1 : (⟨S2x1600000, .i32⟩ : BufTy).Contents (Elt Ideal)) (p : Fin 100000) (k : Fin 128) :
    val_main_v21 (F := Ideal) x0 x1 (ix2 p k)
      = Ideal.div (val_main_v13 (F := Ideal) x0 x1 (ix2 p k)) (max one (cntCol1 x1 (ix2 p (0 : Fin 1)))) := by
  rw [val_main_v21_apply, val_main_v20_apply, idx_v20, val_main_v19_apply, idx_v19, val_main_v18_apply,
    val_main_call0_v1_apply, val_main_call0_v0_apply, val_main_cst_3_apply, cntCol1_apply]
  rfl

/-- The bias spread down the rows, at node p, channel q. -/
theorem bias_v25 (b : (⟨S64, .f32⟩ : BufTy).Contents (Elt Ideal)) (p : Fin 100000) (q : Fin 64) :
    val_main_v25 (F := Ideal) b (ix2 p q) = b (ix1 q) := by
  rw [val_main_v25_apply, idx_v25, val_main_v24_apply, idx_v24]

/-- The reference's first linear stage at node p, channel q. -/
theorem lin1_ref (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (p : Fin 100000) (q : Fin 64) :
    val_main_v29 (F := Ideal) x0 x1 x2 x3 x4 (ix2 p q)
      = lin (val_main_v13 (F := Ideal) x0 x1) (cntCol1 x1) x0 (val_main_v22 (F := Ideal) x2) x3 (val_main_v27 (F := Ideal) x4) p q := by
  rw [val_main_v29_apply, val_main_v26_apply, val_main_v23_apply, val_main_v28_apply, bias_v25]
  have hl : ∑ k : Fin 128, val_main_v21 (F := Ideal) x0 x1 (lidx_main_v23 (ix2 p q) k) * val_main_v22 (F := Ideal) x2 (ridx_main_v23 (ix2 p q) k)
      = ∑ k : Fin 128, Ideal.div (val_main_v13 (F := Ideal) x0 x1 (ix2 p k)) (max one (cntCol1 x1 (ix2 p (0 : Fin 1)))) * val_main_v22 (F := Ideal) x2 (ix2 k q) :=
    Finset.sum_congr rfl fun k _ => by rw [lidx_v23, ridx_v23, mean_v21]
  have hr : ∑ k : Fin 128, x0 (lidx_main_v28 (ix2 p q) k) * val_main_v27 (F := Ideal) x4 (ridx_main_v28 (ix2 p q) k)
      = ∑ k : Fin 128, x0 (ix2 p k) * val_main_v27 (F := Ideal) x4 (ix2 k q) :=
    Finset.sum_congr rfl fun k _ => by rw [lidx_v28, ridx_v28]
  rw [hl, hr]
  rfl

end Cert.ReferenceIdeal.SageRef

end
-- ==== Proof.RefLin2.lean ====
/-
  The reference's second linear stage, entry by entry.

  The reference's graph-convolution layer divides the summed neighbour features by the clipped count (broadcast along
  the row), contracts the quotient with the transposed left weights, adds the bias (broadcast down the rows) and adds
  the node's own hidden features contracted with the transposed right weights. Read at node p and channel q through the
  reference's operations, one at a time, that is the linear stage of the specification, with the unclipped count as
  the column.
-/
import proofs.«105752_j36344013259391_2_alg».proof.Proof.Gen.ReferenceIdeal.Read
import proofs.«105752_j36344013259391_2_alg».proof.Proof.Spec
import proofs.«105752_j36344013259391_2_alg».proof.Proof.LibKeepdims

noncomputable section

namespace Cert.ReferenceIdeal.SageRef

open Cert.ReferenceIdeal Cert.ReferenceIdeal.Gen Cert.ReferenceIdeal.Read Idealize.ShloMosaic Idealize.ShloMosaic.ValueIdx Cert.Sage

/-- The neighbour count as an [N, 1] column, before the clip. -/
def cntCol2 (x1 : (⟨S2x1600000, .i32⟩ : BufTy).Contents (Elt Ideal)) : S100000x1.Idx → EReal :=
  broadcastInDim S100000x1 ![0] bcast_S100000_S100000x1_0 (val_main_v48 (F := Ideal) x1)

theorem cntCol2_apply (x1 : (⟨S2x1600000, .i32⟩ : BufTy).Contents (Elt Ideal)) (p : Fin 100000) :
    cntCol2 x1 (ix2 p (0 : Fin 1)) = val_main_v48 (F := Ideal) x1 (ix1 p) :=
  Cert.Lib.Keepdims.broadcastInDim_a_a1_apply _ _ p 0

theorem lidx_v54 (p : Fin 100000) (q : Fin 40) (k : Fin 64) : lidx_main_v54 (ix2 p q) k = ix2 p k :=
  funext fun a => Fin.ext (by match a with | ⟨0, _⟩ => rfl | ⟨1, _⟩ => rfl)
theorem ridx_v54 (p : Fin 100000) (q : Fin 40) (k : Fin 64) : ridx_main_v54 (ix2 p q) k = ix2 k q :=
  funext fun a => Fin.ext (by match a with | ⟨0, _⟩ => rfl | ⟨1, _⟩ => rfl)
theorem lidx_v59 (p : Fin 100000) (q : Fin 40) (k : Fin 64) : lidx_main_v59 (ix2 p q) k = ix2 p k :=
  funext fun a => Fin.ext (by match a with | ⟨0, _⟩ => rfl | ⟨1, _⟩ => rfl)
theorem ridx_v59 (p : Fin 100000) (q : Fin 40) (k : Fin 64) : ridx_main_v59 (ix2 p q) k = ix2 k q :=
  funext fun a => Fin.ext (by match a with | ⟨0, _⟩ => rfl | ⟨1, _⟩ => rfl)
theorem idx_v51 (p : Fin 100000) (k : Fin 64) : idx_main_v51 (ix2 p k) = ix2 p (0 : Fin 1) :=
  funext fun a => Fin.ext (by match a with | ⟨0, _⟩ => rfl | ⟨1, _⟩ => rfl)
theorem idx_v50 (p : Fin 100000) : idx_main_v50 (ix2 p (0 : Fin 1)) = ix1 p :=
  funext fun a => Fin.ext (by match a with | ⟨0, _⟩ => rfl)
theorem idx_v56 (p : Fin 100000) (q : Fin 40) : idx_main_v56 (ix2 p q) = ix2 (0 : Fin 1) q :=
  funext fun a => Fin.ext (by match a with | ⟨0, _⟩ => rfl | ⟨1, _⟩ => rfl)
theorem idx_v55 (q : Fin 40) : idx_main_v55 (ix2 (0 : Fin 1) q) = ix1 q :=
  funext fun a => Fin.ext (by match a with | ⟨0, _⟩ => rfl)

/-- The mean of the neighbours at node p, input channel k: the summed features over the clipped count. -/
theorem mean_v52 (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (p : Fin 100000) (k : Fin 64) :
    val_main_v52 (F := Ideal) x0 x1 x2 x3 x4 (ix2 p k)
      = Ideal.div (val_main_v44 (F := Ideal) x0 x1 x2 x3 x4 (ix2 p k)) (max one (cntCol2 x1 (ix2 p (0 : Fin 1)))) := by
  rw [val_main_v52_apply, val_main_v51_apply, idx_v51, val_main_v50_apply, idx_v50, val_main_v49_apply,
    val_main_call2_v1_apply, val_main_call2_v0_apply, val_main_cst_9_apply, cntCol2_apply]
  rfl

/-- The bias spread down the rows, at node p, channel q. -/
theorem bias_v56 (b : (⟨S40, .f32⟩ : BufTy).Contents (Elt Ideal)) (p : Fin 100000) (q : Fin 40) :
    val_main_v56 (F := Ideal) b (ix2 p q) = b (ix1 q) := by
  rw [val_main_v56_apply, idx_v56, val_main_v55_apply, idx_v55]

/-- The reference's second linear stage at node p, class q. -/
theorem lin2_ref (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S40x64, .f32⟩ : BufTy).Contents (Elt Ideal)) (x6 : (⟨S40, .f32⟩ : BufTy).Contents (Elt Ideal)) (x7 : (⟨S40x64, .f32⟩ : BufTy).Contents (Elt Ideal)) (p : Fin 100000) (q : Fin 40) :
    val_main_v60 (F := Ideal) x0 x1 x2 x3 x4 x5 x6 x7 (ix2 p q)
      = lin (val_main_v44 (F := Ideal) x0 x1 x2 x3 x4) (cntCol2 x1) (val_main_v30 (F := Ideal) x0 x1 x2 x3 x4) (val_main_v53 (F := Ideal) x5) x6 (val_main_v58 (F := Ideal) x7) p q := by
  rw [val_main_v60_apply, val_main_v57_apply, val_main_v54_apply, val_main_v59_apply, bias_v56]
  have hl : ∑ k : Fin 64, val_main_v52 (F := Ideal) x0 x1 x2 x3 x4 (lidx_main_v54 (ix2 p q) k) * val_main_v53 (F := Ideal) x5 (ridx_main_v54 (ix2 p q) k)
      = ∑ k : Fin 64, Ideal.div (val_main_v44 (F := Ideal) x0 x1 x2 x3 x4 (ix2 p k)) (max one (cntCol2 x1 (ix2 p (0 : Fin 1)))) * val_main_v53 (F := Ideal) x5 (ix2 k q) :=
    Finset.sum_congr rfl fun k _ => by rw [lidx_v54, ridx_v54, mean_v52]
  have hr : ∑ k : Fin 64, (val_main_v30 (F := Ideal) x0 x1 x2 x3 x4) (lidx_main_v59 (ix2 p q) k) * val_main_v58 (F := Ideal) x7 (ridx_main_v59 (ix2 p q) k)
      = ∑ k : Fin 64, (val_main_v30 (F := Ideal) x0 x1 x2 x3 x4) (ix2 p k) * val_main_v58 (F := Ideal) x7 (ix2 k q) :=
    Finset.sum_congr rfl fun k _ => by rw [lidx_v59, ridx_v59]
  rw [hl, hr]
  rfl

end Cert.ReferenceIdeal.SageRef

end
-- ==== Proof.LibRowFold.lean ====
import Idealize.ShloMosaic.PureOps.Ideal.Laws
import Idealize.ShloMosaic.Lib.ValueIdx
import Idealize.ShloMosaic.PureOps.Reduce

open scoped BigOperators

namespace Cert.Lib.RowFold
open Idealize.ShloMosaic Idealize.ShloMosaic.ValueIdx

/-- Over a rank-2 array reduced along its columns, the source index over row `p` with column coordinate
    `k` inserted is the index `(p, k)`. -/
theorem lift_ix1 {R C : Nat} (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- At the extended reals, a minimum-reduction over the columns of a rank-2 array, read at row `p`, is the
    fold of `min` from the accumulator's value over the column coordinates `k` of the entries `(p, k)`. -/
theorem multiReduction_minimumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ x acc h hφ hacc (ix1 p)
      = (Finset.univ : Finset (Fin C)).fold min (Ideal.ofBits .f32 acc) (fun k => x (ix2 p k)) := by
  rw [multiReduction_minimumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a maximum-reduction over the columns of a rank-2 array, read at row `p`, is the
    fold of `max` from the accumulator's value over the column coordinates `k` of the entries `(p, k)`. -/
theorem multiReduction_maximumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ x acc h hφ hacc (ix1 p)
      = (Finset.univ : Finset (Fin C)).fold max (Ideal.ofBits .f32 acc) (fun k => x (ix2 p k)) := by
  rw [multiReduction_maximumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a sum-reduction over the columns of a rank-2 array, read at row `p`, is the sum
    over the column coordinates `k` of the entries `(p, k)`. -/
theorem multiReduction_add_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ x acc h hφ hacc (ix1 p) = ∑ k : Fin C, x (ix2 p k) := by
  refine (Ideal.multiReduction_add_single x acc h hφ hacc (ix1 p)).trans ?_
  exact Finset.sum_congr rfl fun k _ => congrArg x (lift_ix1 h p k)

/-- The host's reduction with the minimum as its body over the columns of a rank-2 array of extended reals,
    read at row `p`: the fold of `min` from the initial value over the column coordinates `k` of the entries
    `(p, k)`. -/
theorem hostReduce_minimumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.minimumf (F := Ideal) (φ := .f32)) x init h' hu (ix1 p)
      = (Finset.univ : Finset (Fin C)).fold min (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's reduction with the maximum as its body over the columns of a rank-2 array of extended reals,
    read at row `p`: the fold of `max` from the initial value over the column coordinates `k` of the entries
    `(p, k)`. -/
theorem hostReduce_maximumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's float sum over the columns of a rank-2 array, at the extended reals and read at row `p`: the
    initial value plus the sum over the column coordinates `k` of the entries `(p, k)`. -/
theorem hostReduceAdd_row {R C : Nat} {u : Shape} (x : FVec Ideal ⟨2, ![R, C]⟩ .f32)
    (init : FVec Ideal u .f32) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (init (Shape.Idx.first hu) + ·)
    (Finset.sum_congr rfl fun k _ => congrArg x (lift_ix1 h p k))

end Cert.Lib.RowFold
-- ==== Proof.RefOut.lean ====
/-
  The reference's two layers as arrays.

  The first layer rectifies its linear stage. The second layer applies a softmax along each row of its linear stage:
  the row's maximum (a reduction from −∞, joined with −∞ once more) is spread back along the row and subtracted, the
  differences are exponentiated, the exponentials are summed along the row from 0, the sum is spread back and divides
  them. Read entry by entry these are the specification's two arrays.
-/
import proofs.«105752_j36344013259391_2_alg».proof.Proof.RefLin1
import proofs.«105752_j36344013259391_2_alg».proof.Proof.RefLin2
import proofs.«105752_j36344013259391_2_alg».proof.Proof.LibRowFold
import Idealize.ShloMosaic.PureOps.Ideal.Laws

set_option maxRecDepth 16384

noncomputable section

namespace Cert.ReferenceIdeal.SageRef

open Cert.ReferenceIdeal Cert.ReferenceIdeal.Gen Cert.ReferenceIdeal.Read Idealize.ShloMosaic Idealize.ShloMosaic.ValueIdx Cert.Sage

/-- The reference's hidden features are the rectified first linear stage. -/
theorem hidden_ref (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) :
    val_main_v30 (F := Ideal) x0 x1 x2 x3 x4
      = hidden (val_main_v13 (F := Ideal) x0 x1) (cntCol1 x1) x0 (val_main_v22 (F := Ideal) x2) x3 (val_main_v27 (F := Ideal) x4) := by
  funext i
  obtain ⟨p, q, rfl⟩ : ∃ (p : Fin 100000) (q : Fin 64), i = ix2 p q := ⟨i 0, i 1, eq_ix2 i⟩
  rw [val_main_v30_apply, val_main_call1_v0_apply, val_main_call1_cst_apply, lin1_ref]
  rfl

theorem idx_v65 (p : Fin 100000) (k : Fin 40) : idx_main_v65 (ix2 p k) = ix2 p (0 : Fin 1) :=
  funext fun a => Fin.ext (by match a with | ⟨0, _⟩ => rfl | ⟨1, _⟩ => rfl)
theorem idx_v64 (p : Fin 100000) : idx_main_v64 (ix2 p (0 : Fin 1)) = ix1 p :=
  funext fun a => Fin.ext (by match a with | ⟨0, _⟩ => rfl)
theorem idx_v70 (p : Fin 100000) (k : Fin 40) : idx_main_v70 (ix2 p k) = ix2 p (0 : Fin 1) :=
  funext fun a => Fin.ext (by match a with | ⟨0, _⟩ => rfl | ⟨1, _⟩ => rfl)
theorem idx_v69 (p : Fin 100000) : idx_main_v69 (ix2 p (0 : Fin 1)) = ix1 p :=
  funext fun a => Fin.ext (by match a with | ⟨0, _⟩ => rfl)
theorem idx_v68 (p : Fin 100000) (k : Fin 40) : idx_main_v68 (ix1 p) k = ix2 p k :=
  funext fun a => Fin.ext (by match a with | ⟨0, _⟩ => rfl | ⟨1, _⟩ => rfl)

/-- The maximum of row p of the scores, folded from −∞. -/
theorem rowMax_ref (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S40x64, .f32⟩ : BufTy).Contents (Elt Ideal)) (x6 : (⟨S40, .f32⟩ : BufTy).Contents (Elt Ideal)) (x7 : (⟨S40x64, .f32⟩ : BufTy).Contents (Elt Ideal)) (p : Fin 100000) :
    val_main_v61 (F := Ideal) x0 x1 x2 x3 x4 x5 x6 x7 (ix1 p)
      = (Finset.univ : Finset (Fin 40)).fold max negInf (fun j => val_main_v60 (F := Ideal) x0 x1 x2 x3 x4 x5 x6 x7 (ix2 p j)) := by
  unfold val_main_v61
  exact Cert.Lib.RowFold.hostReduce_maximumf_row _ _ reducesTo_S100000x40_S100000_d1 (by decide) h_S_ p

/-- The exponential of a score shifted by its row's maximum. -/
theorem expShift_ref (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S40x64, .f32⟩ : BufTy).Contents (Elt Ideal)) (x6 : (⟨S40, .f32⟩ : BufTy).Contents (Elt Ideal)) (x7 : (⟨S40x64, .f32⟩ : BufTy).Contents (Elt Ideal)) (p : Fin 100000) (k : Fin 40) :
    val_main_v67 (F := Ideal) x0 x1 x2 x3 x4 x5 x6 x7 (ix2 p k)
      = Ideal.exp (val_main_v60 (F := Ideal) x0 x1 x2 x3 x4 x5 x6 x7 (ix2 p k)
          - max negInf ((Finset.univ : Finset (Fin 40)).fold max negInf (fun j => val_main_v60 (F := Ideal) x0 x1 x2 x3 x4 x5 x6 x7 (ix2 p j)))) := by
  rw [val_main_v67_apply, val_main_v66_apply, val_main_v65_apply, idx_v65, val_main_v64_apply, idx_v64, val_main_v63_apply,
    val_main_v62_apply, val_main_cst_11_apply, rowMax_ref]
  simp only [Ideal.hostUnary_exp_def, Ideal.subf_def, Ideal.maximumf_def, Ideal.ofBits_def]

/-- The reference's result at node p, class q: the softmax of row p of the scores. -/
theorem softmax_ref (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S40x64, .f32⟩ : BufTy).Contents (Elt Ideal)) (x6 : (⟨S40, .f32⟩ : BufTy).Contents (Elt Ideal)) (x7 : (⟨S40x64, .f32⟩ : BufTy).Contents (Elt Ideal)) (p : Fin 100000) (q : Fin 40) :
    val_main_v71 (F := Ideal) x0 x1 x2 x3 x4 x5 x6 x7 (ix2 p q) = softmaxAt (fun j => val_main_v60 (F := Ideal) x0 x1 x2 x3 x4 x5 x6 x7 (ix2 p j)) q := by
  rw [val_main_v71_apply, val_main_v70_apply, idx_v70, val_main_v69_apply, idx_v69, val_main_v68_apply, val_main_cst_12_apply,
    expShift_ref]
  have hs : ∑ k : Fin 40, val_main_v67 (F := Ideal) x0 x1 x2 x3 x4 x5 x6 x7 (idx_main_v68 (ix1 p) k)
      = ∑ k : Fin 40, Ideal.exp (val_main_v60 (F := Ideal) x0 x1 x2 x3 x4 x5 x6 x7 (ix2 p k)
          - max negInf ((Finset.univ : Finset (Fin 40)).fold max negInf (fun j => val_main_v60 (F := Ideal) x0 x1 x2 x3 x4 x5 x6 x7 (ix2 p j)))) :=
    Finset.sum_congr rfl fun k _ => by rw [idx_v68, expShift_ref]
  rw [hs]
  show Ideal.div _ (Ideal.ofBits .f32 0x00000000#32 + _) = _
  rw [Ideal.ofBits_zero_f32, zero_add]
  rfl

/-- The reference's result is the row-wise softmax of the second linear stage. -/
theorem probs_ref (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S40x64, .f32⟩ : BufTy).Contents (Elt Ideal)) (x6 : (⟨S40, .f32⟩ : BufTy).Contents (Elt Ideal)) (x7 : (⟨S40x64, .f32⟩ : BufTy).Contents (Elt Ideal)) :
    val_main_v71 (F := Ideal) x0 x1 x2 x3 x4 x5 x6 x7
      = classProbs (val_main_v44 (F := Ideal) x0 x1 x2 x3 x4) (cntCol2 x1) (val_main_v30 (F := Ideal) x0 x1 x2 x3 x4) (val_main_v53 (F := Ideal) x5) x6
          (val_main_v58 (F := Ideal) x7) := by
  funext i
  obtain ⟨p, q, rfl⟩ : ∃ (p : Fin 100000) (q : Fin 40), i = ix2 p q := ⟨i 0, i 1, eq_ix2 i⟩
  rw [softmax_ref]
  show _ = softmaxAt (fun j => lin (val_main_v44 (F := Ideal) x0 x1 x2 x3 x4) (cntCol2 x1) (val_main_v30 (F := Ideal) x0 x1 x2 x3 x4) (val_main_v53 (F := Ideal) x5) x6 (val_main_v58 (F := Ideal) x7) p j) q
  exact congrArg (fun z => softmaxAt z q) (funext fun j => lin2_ref x0 x1 x2 x3 x4 x5 x6 x7 p j)

end Cert.ReferenceIdeal.SageRef

end
-- ==== Proof.Entry1.lean ====
/-
  The first grid's arrays, and what it leaves, in the reference's terms.

  Before the first grid the kernel program computes, on the host, exactly what the reference computes: the destination
  and source columns sliced from the edge list (the source index wrapped when negative), the neighbour count by a
  scatter-add of ones, the summed neighbour features by a gather and a scatter-add, the transposed weights. The only
  differences are changes of float format, which do nothing on the extended reals. So each array the grid is entered
  with is a stage of the reference, and — the grid leaving the rectified linear stage of its arrays — the hidden
  features the kernel program holds after the grid are the reference's.
-/
import proofs.«105752_j36344013259391_2_alg».proof.Proof.Region0
import proofs.«105752_j36344013259391_2_alg».proof.Proof.RefOut
import Idealize.ShloMosaic.Lib.StableHlo.Run

set_option maxRecDepth 16384

noncomputable section

namespace Cert.KernelIdeal.SageEntry

open Cert.KernelIdeal Cert.KernelIdeal.Gen Idealize.ShloMosaic Idealize.ShloMosaic.TcCoe Idealize.SL.Sem
open Idealize.ShloMosaic.StableHlo Cert.Sage
open Idealize.ShloMosaic.Pipeline (Dat)

variable (m : (ℓ : Loc nD τ sig) → Buf (Elt Ideal) ℓ) (ρ : Dev nD → PrngReg)

/-- The summed neighbour features the first grid is entered with are the reference's. -/
theorem entry_sums1 (c : Dev nD) :
    (V1 m ρ c main_v20 : S100000x128.Idx → EReal) = Cert.ReferenceIdeal.Read.val_main_v13 (F := Ideal) (m ((c.tc : Thread nD τ).loc main_arg0)) (m ((c.tc : Thread nD τ).loc main_arg1)) := by
  show StableHlo.after hostOps0 (W0 m ρ c) (Proc.devRef .tc main_v20) = _
  after_results_simp <;> rfl

/-- The count column the first grid is entered with is the reference's count, as a column. -/
theorem entry_count1 (c : Dev nD) :
    (V1 m ρ c main_v8 : S100000x1.Idx → EReal) = Cert.ReferenceIdeal.SageRef.cntCol1 (m ((c.tc : Thread nD τ).loc main_arg1)) := by
  show StableHlo.after hostOps0 (W0 m ρ c) (Proc.devRef .tc main_v8) = _
  after_results_simp <;> rfl

/-- The node features the first grid is entered with are the argument. -/
theorem entry_feat1 (c : Dev nD) : (V1 m ρ c main_v9 : S100000x128.Idx → EReal) = (m ((c.tc : Thread nD τ).loc main_arg0)) := by
  show StableHlo.after hostOps0 (W0 m ρ c) (Proc.devRef .tc main_v9) = _
  after_results_simp <;> rfl

/-- The left weights the first grid is entered with are the reference's transposed left weights. -/
theorem entry_wl1 (c : Dev nD) :
    (V1 m ρ c main_v22 : S128x64.Idx → EReal) = Cert.ReferenceIdeal.Read.val_main_v22 (F := Ideal) (m ((c.tc : Thread nD τ).loc main_arg2)) := by
  show StableHlo.after hostOps0 (W0 m ρ c) (Proc.devRef .tc main_v22) = _
  after_results_simp <;> rfl

/-- The bias the first grid is entered with is the argument. -/
theorem entry_bias1 (c : Dev nD) : (V1 m ρ c main_arg3 : S64.Idx → EReal) = (m ((c.tc : Thread nD τ).loc main_arg3)) := by
  show StableHlo.after hostOps0 (W0 m ρ c) (Proc.devRef .tc main_arg3) = _
  after_results_simp <;> rfl

/-- The right weights the first grid is entered with are the reference's transposed right weights. -/
theorem entry_wr1 (c : Dev nD) :
    (V1 m ρ c main_v24 : S128x64.Idx → EReal) = Cert.ReferenceIdeal.Read.val_main_v27 (F := Ideal) (m ((c.tc : Thread nD τ).loc main_arg4)) := by
  show StableHlo.after hostOps0 (W0 m ρ c) (Proc.devRef .tc main_v24) = _
  after_results_simp <;> rfl

/-- After the first grid the hidden features are the reference's. -/
theorem hidden_after1 (c : Dev nD) :
    (W2 m ρ c (Proc.devRef .tc main_v25) : S100000x64.Idx → EReal)
      = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 6).trans ((SageValue0.final0 (V1 m ρ) c).trans ?_)
  show hidden (V1 m ρ c main_v20) (V1 m ρ c main_v8) (V1 m ρ c main_v9) (V1 m ρ c main_v22) (V1 m ρ c main_arg3) (V1 m ρ c main_v24) = _
  rw [entry_sums1, entry_count1, entry_feat1, entry_wl1, entry_bias1, entry_wr1]
  exact (Cert.ReferenceIdeal.SageRef.hidden_ref _ _ _ _ _).symm

/-- The first grid leaves its count column as it found it. -/
theorem count_after1 (c : Dev nD) :
    (W2 m ρ c (Proc.devRef .tc main_v8) : S100000x1.Idx → EReal) = Cert.ReferenceIdeal.SageRef.cntCol1 (m ((c.tc : Thread nD τ).loc main_arg1)) :=
  (W2_arr m ρ c 1).trans (((dat0 (V1 m ρ) c).arrAt_in 1 rfl _).trans ((A_eq0 (V1 m ρ) c 1).trans (entry_count1 m ρ c)))

end Cert.KernelIdeal.SageEntry

end
-- ==== Proof.Body1.lean ====
/-
  The second layer's kernel body at one entry.

  On a block of 5000 nodes the body forms the same linear stage as the first layer (64 inputs, 40 classes), then a
  softmax along each row: the row's maximum, folded from −∞ and joined with −∞ once more, is subtracted, the
  differences are exponentiated, and each exponential is divided by the row's sum of exponentials.
-/
import proofs.«105752_j36344013259391_2_alg».proof.Proof.Gen.KernelIdeal.Skeleton
import proofs.«105752_j36344013259391_2_alg».proof.Proof.Spec
import proofs.«105752_j36344013259391_2_alg».proof.Proof.LibPlainContract
import proofs.«105752_j36344013259391_2_alg».proof.Proof.LibKeepdims
import proofs.«105752_j36344013259391_2_alg».proof.Proof.LibRowFold
import Idealize.ShloMosaic.Lib.ValueLayout
import Idealize.ShloMosaic.Lib.Pipeline.Value

noncomputable section

namespace Cert.KernelIdeal.SageBody

open Idealize.ShloMosaic Idealize.ShloMosaic.ValueIdx Cert.KernelIdeal Cert.KernelIdeal.Gen Cert.Sage

/-- The matrix unit's [5000, 64] × [64, 40] product into the zero accumulator, at one entry. -/
theorem matmul1_apply (l : FVec Ideal S5000x64 .bf16) (r : FVec Ideal S64x40 .bf16) (p : Fin 5000) (q : Fin 40) :
    matmul dot_S5000x64_S64x40_S5000x40_1_0_0_1_n_n none l r (constant (F := Ideal) S5000x40 .f32 0x00000000#32) (ix2 p q)
      = ∑ k : Fin 64, l (ix2 p k) * r (ix2 k q) :=
  Cert.LibPlainContract.matmul_plain_apply 5000 64 40 none l r p q

/-- The exponential of a vector, entry by entry. -/
theorem exp_apply {s : Shape} {φ : FTy} (v : FVec Ideal s φ) (i : s.Idx) : exp v i = Ideal.exp (v i) := rfl

/-- The maximum along the rows of a [5000, 40] block, folded from −∞, at row r. -/
theorem rowMax_apply (z : FVec Ideal S5000x40 .f32) (h : S5000x40.Reduces [1] S5000) (hφ : FKind.Formats .f32)
    (hacc : (0xFF800000#32 : BitVec 32) = 0xFF800000#32) (r : Fin 5000) :
    multiReduction .maximumf [1] S5000 z 0xFF800000#32 h hφ hacc (ix1 r)
      = (Finset.univ : Finset (Fin 40)).fold max negInf (fun k => z (ix2 r k)) :=
  Cert.Lib.RowFold.multiReduction_maximumf_row z 0xFF800000#32 h hφ hacc r

/-- The sum along the rows of a [5000, 40] block from the zero accumulator, at row r. -/
theorem rowSum_apply (z : FVec Ideal S5000x40 .f32) (h : S5000x40.Reduces [1] S5000) (hφ : FKind.Formats .f32)
    (hacc : (0x00000000#32 : BitVec 32) = 0x00000000#32) (r : Fin 5000) :
    multiReduction .add [1] S5000 z 0x00000000#32 h hφ hacc (ix1 r) = ∑ k : Fin 40, z (ix2 r k) :=
  Cert.Lib.RowFold.multiReduction_add_row z 0x00000000#32 h hφ hacc r

/-- The exponentials of a block of scores, each row shifted by its maximum. -/
def expShift (z : FVec Ideal S5000x40 .f32) : FVec Ideal S5000x40 .f32 :=
  exp (subf z (broadcastTo S5000x40 (shapeCast S5000x1
    (maximumf (broadcast S5000 (Scalar.ofBits .f32 0xFF800000#32))
      (multiReduction .maximumf [1] S5000 z 0xFF800000#32 reduces_S5000x40_S5000 (.inl rfl) rfl))
    shapeCasts_S5000_S5000x1) broadcasts_S5000x1_S5000x40))

/-- The softmax the second kernel applies to its block of scores. -/
def rowSoftmax (z : FVec Ideal S5000x40 .f32) : FVec Ideal S5000x40 .f32 :=
  divf (expShift z) (broadcastTo S5000x40 (shapeCast S5000x1
    (multiReduction .add [1] S5000 (expShift z) 0x00000000#32 reduces_S5000x40_S5000 (.inl rfl) rfl)
    shapeCasts_S5000_S5000x1) broadcasts_S5000x1_S5000x40)

theorem expShift_apply (z : FVec Ideal S5000x40 .f32) (r : Fin 5000) (k : Fin 40) :
    expShift z (ix2 r k)
      = Ideal.exp (z (ix2 r k) - max negInf ((Finset.univ : Finset (Fin 40)).fold max negInf (fun j => z (ix2 r j)))) := by
  dsimp only [expShift]
  rw [exp_apply, subf_apply, Cert.Lib.Keepdims.broadcastTo_a1_ab_apply, Cert.Lib.Keepdims.shapeCast_a_a1_apply,
    maximumf_apply, broadcast_apply, rowMax_apply]
  rfl

theorem rowSoftmax_apply (z : FVec Ideal S5000x40 .f32) (r : Fin 5000) (q : Fin 40) :
    rowSoftmax z (ix2 r q) = softmaxAt (fun j => z (ix2 r j)) q := by
  dsimp only [rowSoftmax]
  rw [divf_apply, Cert.Lib.Keepdims.broadcastTo_a1_ab_apply, Cert.Lib.Keepdims.shapeCast_a_a1_apply, rowSum_apply]
  simp only [expShift_apply]
  rfl

/-- The value the second kernel stores, at row r of its block and class q. The blocks are, in this order: neighbour
    sums, counts, node features, left weights, right weights, bias. -/
theorem pay1_apply (x0 : Vec Ideal S5000x64 .f32) (x1 : Vec Ideal S5000x1 .f32) (x2 : Vec Ideal S5000x64 .bf16)
    (x3 : Vec Ideal S64x40 .bf16) (x5 : Vec Ideal S64x40 .bf16) (x4 : Vec Ideal S40 .f32) (r : Fin 5000) (q : Fin 40) :
    k1_pay1 (F := Ideal) x0 x1 x2 x3 x5 x4 (ix2 r q) = softmaxAt (fun j => lin x0 x1 x2 x3 x4 x5 r j) q := by
  unfold k1_pay1
  show rowSoftmax _ (ix2 r q) = _
  rw [rowSoftmax_apply]
  refine congrArg (fun z => softmaxAt z q) (funext fun j => ?_)
  simp only [shapeCast_self]
  rw [addf_apply, addf_apply, matmul1_apply, matmul1_apply, broadcastTo_1b_ab_apply, shapeCast_a_1a_apply]
  unfold lin
  simp only [truncf_apply, divf_apply, Cert.Lib.Keepdims.broadcastTo_a1_ab_apply, maximumf_apply, broadcast_apply]
  rfl

end Cert.KernelIdeal.SageBody

end
-- ==== Proof.Region1.lean ====
/-
  What the second grid leaves in its output array.

  The second grid has the first one's layout with 64 input channels and 40 classes: point t stages block t of the
  neighbour sums, the counts and the hidden features, the whole weights and bias, and writes back block t of the
  class probabilities. The softmax of a row only reads that row's scores, and those only that row of the inputs, so
  what point t writes back is block t of ONE array: the row-wise softmax of the linear stage of the whole arrays as
  the grid finds them. The twenty blocks tile the output array, so after the grid the output array is that array.
-/
import proofs.«105752_j36344013259391_2_alg».proof.Proof.Gen.KernelIdeal.Frame
import proofs.«105752_j36344013259391_2_alg».proof.Proof.Body1
import proofs.«105752_j36344013259391_2_alg».proof.Proof.Rows

set_option maxRecDepth 16384

noncomputable section

namespace Cert.KernelIdeal.SageValue1

open Cert.KernelIdeal Cert.KernelIdeal.Gen Idealize.ShloMosaic Idealize.ShloMosaic.ValueIdx Idealize.ShloMosaic.TcCoe
open Idealize.SL.Sem Cert.Sage
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The grid's index maps, decided over its twenty points: the node-indexed windows and the output sit at block
    (t, 0), the weights and the bias at block 0. -/
theorem index1 : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem lt1 (t : Fin cfg1.N) : t.val < 20 := (index1 t).1

/-- Row r, column k of block t of the neighbour sums is the array's entry (t·5000 + r, k). -/
theorem read1_0 (c : Dev nD) (t : Fin cfg1.N) (r : Fin 5000) (k : Fin 64) :
    iblk1 V c 0 t (ix2 r k) = V c main_v36 (ix2 (row t.val (lt1 t) r) k) := by
  obtain ⟨-, e0, e1, -⟩ := index1 t
  show V c main_v36 (((cfg1.win 0).blk t).view.emb (ix2 r k)) = V c main_v36 (ix2 (row t.val (lt1 t) r) k)
  refine congrArg (V c main_v36) (funext fun a => Fin.ext ?_)
  match a with
  | ⟨0, _⟩ => show win1_0.index t (0 : Fin 2) * 5000 + 1 * r.val = t.val * 5000 + r.val; omega
  | ⟨1, _⟩ => show win1_0.index t (1 : Fin 2) * 64 + 1 * k.val = k.val; omega

/-- The count block's row r is the count column's row t·5000 + r. -/
theorem read1_1 (c : Dev nD) (t : Fin cfg1.N) (r : Fin 5000) :
    iblk1 V c 1 t (ix2 r (0 : Fin 1)) = V c main_v8 (ix2 (row t.val (lt1 t) r) (0 : Fin 1)) := by
  obtain ⟨-, -, -, e0, e1, -⟩ := index1 t
  show V c main_v8 (((cfg1.win 1).blk t).view.emb (ix2 r (0 : Fin 1))) = V c main_v8 (ix2 (row t.val (lt1 t) r) (0 : Fin 1))
  refine congrArg (V c main_v8) (funext fun a => Fin.ext ?_)
  match a with
  | ⟨0, _⟩ => show win1_1.index t (0 : Fin 2) * 5000 + 1 * r.val = t.val * 5000 + r.val; omega
  | ⟨1, _⟩ => show win1_1.index t (1 : Fin 2) * 1 + 1 * 0 = 0; omega

/-- Row r, column k of block t of the node features is the array's entry (t·5000 + r, k). -/
theorem read1_2 (c : Dev nD) (t : Fin cfg1.N) (r : Fin 5000) (k : Fin 64) :
    iblk1 V c 2 t (ix2 r k) = V c main_v25 (ix2 (row t.val (lt1 t) r) k) := by
  obtain ⟨-, -, -, -, -, e0, e1, -⟩ := index1 t
  show V c main_v25 (((cfg1.win 2).blk t).view.emb (ix2 r k)) = V c main_v25 (ix2 (row t.val (lt1 t) r) k)
  refine congrArg (V c main_v25) (funext fun a => Fin.ext ?_)
  match a with
  | ⟨0, _⟩ => show win1_2.index t (0 : Fin 2) * 5000 + 1 * r.val = t.val * 5000 + r.val; omega
  | ⟨1, _⟩ => show win1_2.index t (1 : Fin 2) * 64 + 1 * k.val = k.val; omega

/-- The left weights' one block is the whole matrix. -/
theorem read1_3 (c : Dev nD) (t : Fin cfg1.N) : (iblk1 V c 3 t : S64x40.Idx → EReal) = V c main_v38 := by
  obtain ⟨-, -, -, -, -, -, -, e0, e1, -⟩ := index1 t
  funext y
  show V c main_v38 (((cfg1.win 3).blk t).view.emb y) = V c main_v38 y
  refine congrArg (V c main_v38) (funext fun a => Fin.ext ?_)
  match a with
  | ⟨0, _⟩ => show win1_3.index t (0 : Fin 2) * 64 + 1 * (y 0).val = (y 0).val; omega
  | ⟨1, _⟩ => show win1_3.index t (1 : Fin 2) * 40 + 1 * (y 1).val = (y 1).val; omega

/-- The bias's one block is the whole vector. -/
theorem read1_4 (c : Dev nD) (t : Fin cfg1.N) : (iblk1 V c 4 t : S40.Idx → EReal) = V c main_arg6 := by
  obtain ⟨-, -, -, -, -, -, -, -, -, e0, -⟩ := index1 t
  funext y
  show V c main_arg6 (((cfg1.win 4).blk t).view.emb y) = V c main_arg6 y
  refine congrArg (V c main_arg6) (funext fun a => Fin.ext ?_)
  match a with
  | ⟨0, _⟩ => show win1_4.index t (0 : Fin 1) * 40 + 1 * (y 0).val = (y 0).val; omega

/-- The right weights' one block is the whole matrix. -/
theorem read1_5 (c : Dev nD) (t : Fin cfg1.N) : (iblk1 V c 5 t : S64x40.Idx → EReal) = V c main_v40 := by
  obtain ⟨-, -, -, -, -, -, -, -, -, -, e0, e1, -⟩ := index1 t
  funext y
  show V c main_v40 (((cfg1.win 5).blk t).view.emb y) = V c main_v40 y
  refine congrArg (V c main_v40) (funext fun a => Fin.ext ?_)
  match a with
  | ⟨0, _⟩ => show win1_5.index t (0 : Fin 2) * 64 + 1 * (y 0).val = (y 0).val; omega
  | ⟨1, _⟩ => show win1_5.index t (1 : Fin 2) * 40 + 1 * (y 1).val = (y 1).val; omega

/-- Row r, channel q of the output's block t is the output array's entry (t·5000 + r, q). -/
theorem emb1_6 (t : Fin cfg1.N) (r : Fin 5000) (q : Fin 40) :
    ((cfg1.win 6).blk t).view.emb (ix2 r q) = ix2 (row t.val (lt1 t) r) q := by
  obtain ⟨-, -, -, -, -, -, -, -, -, -, -, -, e0, e1⟩ := index1 t
  refine funext fun a => Fin.ext ?_
  match a with
  | ⟨0, _⟩ => show win1_6.index t (0 : Fin 2) * 5000 + 1 * r.val = t.val * 5000 + r.val; omega
  | ⟨1, _⟩ => show win1_6.index t (1 : Fin 2) * 40 + 1 * q.val = q.val; omega

/-- The second layer's output as one array: the row-wise softmax of the linear stage of the arrays the grid is entered with. -/
abbrev probs1 (c : Dev nD) : S100000x40.Idx → EReal :=
  classProbs (V c main_v36) (V c main_v8) (V c main_v25) (V c main_v38) (V c main_arg6) (V c main_v40)

/-- What point t writes back is block t of that array. -/
theorem flushed1_eq (c : Dev nD) (t : Fin cfg1.N) :
    (dat1 V c).flushed 6 t = ((cfg1.win 6).blk t).view.read (Elt Ideal) (probs1 V c) := by
  show (cfg1.win 6).cut (grid1.coords t) ((dat1 V c).after 6 t) = _
  rw [after1_6]
  unfold out1_6
  rw [View.canon_unit_zero zero2]
  simp only [View.ld_unit_zero (S := S5000x64) zero2, View.ld_unit_zero (S := S5000x1) zero2,
    View.ld_unit_zero (S := S64x40) zero2, View.ld_unit_zero (S := S40) zero1]
  funext j
  obtain ⟨r, q, rfl⟩ : ∃ (r : Fin 5000) (q : Fin 40), j = ix2 r q := ⟨j 0, j 1, eq_ix2 j⟩
  show k1_pay1 (iblk1 V c 0 t) (iblk1 V c 1 t) (iblk1 V c 2 t) (iblk1 V c 3 t) (iblk1 V c 5 t) (iblk1 V c 4 t) (ix2 r q)
    = probs1 V c (((cfg1.win 6).blk t).view.emb (ix2 r q))
  rw [emb1_6]
  refine (SageBody.pay1_apply (iblk1 V c 0 t) (iblk1 V c 1 t) (iblk1 V c 2 t) (iblk1 V c 3 t) (iblk1 V c 5 t) (iblk1 V c 4 t) r q).trans ?_
  show _ = softmaxAt (fun j => lin (V c main_v36) (V c main_v8) (V c main_v25) (V c main_v38) (V c main_arg6) (V c main_v40) (row t.val (lt1 t) r) j) q
  rw [read1_3, read1_4, read1_5]
  exact congrArg (fun z => softmaxAt z q) (funext fun j => lin_congr _ _ _ _ _ _ _ _ _ r (row t.val (lt1 t) r) j
    (fun k => read1_0 V c t r k) (read1_1 V c t r) (fun k => read1_2 V c t r k))

/-- An index of the output array lies in point t's block iff each coordinate is in the block's range on its axis. -/
theorem mem_blk1 (t : Fin cfg1.N) (i : S100000x40.Idx) :
    i ∈ ((cfg1.win 6).blk t).view.set ↔ ∀ a : Fin 2, win1_6.index t a * S5000x40.size a ≤ (i a).val
      ∧ (i a).val < win1_6.index t a * S5000x40.size a + S5000x40.size a := by
  show i ∈ ((View.whole main_v41).slice (win1_6.rect t)).set ↔ _
  rw [View.set_slice_whole, Rect.mem_set_unit]
  exact Iff.rfl

/-- Every index of the output array lies in some point's block: row i is in block i / 5000. -/
theorem cover1 (i : S100000x40.Idx) :
    ∃ t : Fin cfg1.N, (cfg1.win 6).flush t = true ∧ i ∈ ((cfg1.win 6).blk t).view.set := by
  have hi0 : (i 0).val < 100000 := (i 0).isLt
  have hi1 : (i 1).val < 40 := (i 1).isLt
  let t : Fin cfg1.N := ⟨(i 0).val / 5000, lt_of_lt_of_eq (by omega : (i 0).val / 5000 < 20) N_1.symm⟩
  obtain ⟨-, -, -, -, -, -, -, -, -, -, -, -, e0, e1⟩ := index1 t
  have ht : t.val = (i 0).val / 5000 := rfl
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 40 ≤ (i 1).val ∧ (i 1).val < win1_6.index t (1 : Fin 2) * 40 + 40; omega

/-- After the grid its output array is that array. -/
theorem final1 (c : Dev nD) : (dat1 V c).arrAt 6 cfg1.N = probs1 V c :=
  (dat1 V c).arrAt_eq_of_cover 6 (probs1 V c) (fun t _ => flushed1_eq V c t) cover1

end Cert.KernelIdeal.SageValue1

end
-- ==== Proof.Entry2.lean ====
/-
  The second grid's arrays, and the kernel program's result, in the reference's terms.

  Between the grids the kernel program gathers the hidden features along the edges and scatter-adds them, exactly as
  the reference does; the count column, the edge columns and the arguments pass the first grid untouched. So each array
  the second grid is entered with is a stage of the reference, and — the grid leaving the row-wise softmax of the linear
  stage of its arrays — the kernel program's result is the reference's last stage, as an array of the arguments.
-/
import proofs.«105752_j36344013259391_2_alg».proof.Proof.Entry1
import proofs.«105752_j36344013259391_2_alg».proof.Proof.Region1

set_option maxRecDepth 16384

noncomputable section

namespace Cert.KernelIdeal.SageEntry

open Cert.KernelIdeal Cert.KernelIdeal.Gen Idealize.ShloMosaic Idealize.ShloMosaic.TcCoe Idealize.SL.Sem
open Idealize.ShloMosaic.StableHlo Cert.Sage
open Idealize.ShloMosaic.Pipeline (Dat)

variable (m : (ℓ : Loc nD τ sig) → Buf (Elt Ideal) ℓ) (ρ : Dev nD → PrngReg)

/-- The source column passes the first grid untouched; it is the reference's second slice of the edge list. -/
theorem src_after1 (c : Dev nD) :
    W2 m ρ c (Proc.devRef .tc main_v1) = Cert.ReferenceIdeal.Read.val_main_v32 (F := Ideal) (m ((c.tc : Thread nD τ).loc main_arg1)) := by
  refine (W2_of_ne m ρ c main_v1 (by decide)).trans ?_
  show StableHlo.after hostOps0 (W0 m ρ c) (Proc.devRef .tc main_v1) = _
  after_results_simp <;> rfl

/-- So does the destination column. -/
theorem dst_after1 (c : Dev nD) :
    W2 m ρ c (Proc.devRef .tc main_v3) = Cert.ReferenceIdeal.Read.val_main_v34 (F := Ideal) (m ((c.tc : Thread nD τ).loc main_arg1)) := by
  refine (W2_of_ne m ρ c main_v3 (by decide)).trans ?_
  show StableHlo.after hostOps0 (W0 m ρ c) (Proc.devRef .tc main_v3) = _
  after_results_simp <;> rfl

/-- The second layer's arguments pass the first stretch and the first grid untouched. -/
theorem arg5_after1 (c : Dev nD) : W2 m ρ c (Proc.devRef .tc main_arg5) = (m ((c.tc : Thread nD τ).loc main_arg5)) := by
  refine (W2_of_ne m ρ c main_arg5 (by decide)).trans ?_
  show StableHlo.after hostOps0 (W0 m ρ c) (Proc.devRef .tc main_arg5) = _
  after_results_simp <;> rfl
theorem arg6_after1 (c : Dev nD) : W2 m ρ c (Proc.devRef .tc main_arg6) = (m ((c.tc : Thread nD τ).loc main_arg6)) := by
  refine (W2_of_ne m ρ c main_arg6 (by decide)).trans ?_
  show StableHlo.after hostOps0 (W0 m ρ c) (Proc.devRef .tc main_arg6) = _
  after_results_simp <;> rfl
theorem arg7_after1 (c : Dev nD) : W2 m ρ c (Proc.devRef .tc main_arg7) = (m ((c.tc : Thread nD τ).loc main_arg7)) := by
  refine (W2_of_ne m ρ c main_arg7 (by decide)).trans ?_
  show StableHlo.after hostOps0 (W0 m ρ c) (Proc.devRef .tc main_arg7) = _
  after_results_simp <;> rfl

/-- The summed hidden features the second grid is entered with are the reference's. -/
theorem entry_sums2 (c : Dev nD) :
    (V3 m ρ c main_v36 : S100000x64.Idx → EReal) = Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v36) = _
  after_results_simp
  rw [hidden_after1, src_after1, dst_after1]
  rfl

/-- The count column the second grid is entered with is the reference's second count, as a column. -/
theorem entry_count2 (c : Dev nD) :
    (V3 m ρ c main_v8 : S100000x1.Idx → EReal) = Cert.ReferenceIdeal.SageRef.cntCol2 (m ((c.tc : Thread nD τ).loc main_arg1)) := by
  show StableHlo.after hostOps1 (W2 m ρ c) (Proc.devRef .tc main_v8) = _
  after_results_simp
  rw [count_after1]
  rfl

/-- The hidden features the second grid is entered with are the reference's. -/
theorem entry_feat2 (c : Dev nD) :
    (V3 m ρ c main_v25 : S100000x64.Idx → EReal) = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v25) = _
  after_results_simp
  exact hidden_after1 m ρ c

/-- The left weights the second grid is entered with are the reference's transposed left weights. -/
theorem entry_wl2 (c : Dev nD) :
    (V3 m ρ c main_v38 : S64x40.Idx → EReal) = Cert.ReferenceIdeal.Read.val_main_v53 (F := Ideal) (m ((c.tc : Thread nD τ).loc main_arg5)) := by
  show StableHlo.after hostOps1 (W2 m ρ c) (Proc.devRef .tc main_v38) = _
  after_results_simp
  rw [arg5_after1]
  rfl

/-- The bias the second grid is entered with is the argument. -/
theorem entry_bias2 (c : Dev nD) : (V3 m ρ c main_arg6 : S40.Idx → EReal) = (m ((c.tc : Thread nD τ).loc main_arg6)) := by
  show StableHlo.after hostOps1 (W2 m ρ c) (Proc.devRef .tc main_arg6) = _
  after_results_simp
  exact arg6_after1 m ρ c

/-- The right weights the second grid is entered with are the reference's transposed right weights. -/
theorem entry_wr2 (c : Dev nD) :
    (V3 m ρ c main_v40 : S64x40.Idx → EReal) = Cert.ReferenceIdeal.Read.val_main_v58 (F := Ideal) (m ((c.tc : Thread nD τ).loc main_arg7)) := by
  show StableHlo.after hostOps1 (W2 m ρ c) (Proc.devRef .tc main_v40) = _
  after_results_simp
  rw [arg7_after1]
  rfl

/-- What the last stretch leaves in the result buffer is the reference's last stage of the arguments. -/
theorem kernel_result (c : Dev nD) :
    (W4 m ρ c (Proc.devRef .tc main_v41) : S100000x40.Idx → EReal) = Cert.ReferenceIdeal.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 6).trans ((SageValue1.final1 (V3 m ρ) c).trans ?_)
  show classProbs (V3 m ρ c main_v36) (V3 m ρ c main_v8) (V3 m ρ c main_v25) (V3 m ρ c main_v38) (V3 m ρ c main_arg6) (V3 m ρ c main_v40) = _
  rw [entry_sums2, entry_count2, entry_feat2, entry_wl2, entry_bias2, entry_wr2]
  exact (Cert.ReferenceIdeal.SageRef.probs_ref _ _ _ _ _ _ _ _).symm

end Cert.KernelIdeal.SageEntry

end
-- ==== Proof.lean ====
/-
  A two-layer mean-aggregating graph convolution: a tiled kernel program against its plain reference.

  Both programs take node features x [100000, 128], an edge list [2, 1600000] and two layers' weights. A layer sums the
  features of each node's neighbours (a gather along the edges' sources and a scatter-add at their destinations),
  divides by max(1, neighbour count), multiplies by a left weight matrix, adds a bias and adds the node's own features
  times a right weight matrix. The first layer rectifies the result; the second applies a softmax along each row.

  The kernel program does the gathers and scatter-adds on the host, as the reference does, and runs each layer's dense
  part as a grid of twenty blocks of 5000 nodes; it rounds features and weights to a shorter float format on the way,
  which does nothing on the extended reals. The proof reads the kernel program's run at its result buffer (RunResult),
  shows that each grid leaves in its output array ONE array — the layer's formula of the arrays the grid is entered with
  (Body0, Body1, Region0, Region1 over Spec and Rows) —, reads the reference's two layers as the same formulas of its own
  stages (RefLin1, RefLin2, RefOut), and identifies the arrays each grid is entered with with the reference's stages
  (Entry1, Entry2). No algebraic law beyond that identification is needed, so the finiteness of the inputs is not used.
-/
import proofs.«105752_j36344013259391_2_alg».proof.Defs
import proofs.«105752_j36344013259391_2_alg».proof.Proof.Gen.Kernel
import proofs.«105752_j36344013259391_2_alg».proof.Proof.Gen.Kernel.Skeleton
import proofs.«105752_j36344013259391_2_alg».proof.Proof.Gen.Kernel.Launch
import proofs.«105752_j36344013259391_2_alg».proof.Proof.Gen.Kernel.Points
import proofs.«105752_j36344013259391_2_alg».proof.Proof.Gen.Kernel.Frame
import proofs.«105752_j36344013259391_2_alg».proof.Proof.Gen.KernelIdeal
import proofs.«105752_j36344013259391_2_alg».proof.Proof.Gen.KernelIdeal.Skeleton
import proofs.«105752_j36344013259391_2_alg».proof.Proof.Gen.KernelIdeal.Launch
import proofs.«105752_j36344013259391_2_alg».proof.Proof.Gen.KernelIdeal.Points
import proofs.«105752_j36344013259391_2_alg».proof.Proof.Gen.KernelIdeal.Frame
import proofs.«105752_j36344013259391_2_alg».proof.Proof.Gen.ReferenceIdeal
import proofs.«105752_j36344013259391_2_alg».proof.Proof.Gen.Pre_finite_inputs
import proofs.«105752_j36344013259391_2_alg».proof.Proof.Gen.ReferenceIdeal.Run
import proofs.«105752_j36344013259391_2_alg».proof.Proof.Gen.ReferenceIdeal.Read
import proofs.«105752_j36344013259391_2_alg».proof.Proof.RunResult
import proofs.«105752_j36344013259391_2_alg».proof.Proof.Entry2
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the reference's last stage of those
    arguments in their result buffers. -/
theorem algebraic : Cert.algebraic_KernelIdeal_ReferenceIdeal := by
  intro m ρ m' ρ' _ hagree
  refine ⟨fun c => Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ Cert.KernelIdeal.SageRun.result_mem).trans (Cert.KernelIdeal.SageEntry.kernel_result m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c)⟩)
      (Cert.KernelIdeal.SageRun.run_final m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v71_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
